-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x300 : Shape := ⟨2, ![1024, 300]⟩
abbrev S100x600 : Shape := ⟨2, ![100, 600]⟩
abbrev S100 : Shape := ⟨1, ![100]⟩
abbrev S1x100 : Shape := ⟨2, ![1, 100]⟩
abbrev S1 : Shape := ⟨1, ![1]⟩
abbrev S1024 : Shape := ⟨1, ![1024]⟩
abbrev S_ : Shape := ⟨0, ![]⟩

class Facts : Prop where
  bcast_S_S1024x300 : S_.BroadcastsInDim S1024x300 (![] : Fin 0 → Fin S1024x300.rank)
  reducesTo_S1024x300_S_d0_1 : S1024x300.ReducesTo [0, 1] S_
  h_S_ : 0 < S_.numel
  bcast_S_S100x600 : S_.BroadcastsInDim S100x600 (![] : Fin 0 → Fin S100x600.rank)
  reducesTo_S100x600_S_d0_1 : S100x600.ReducesTo [0, 1] S_
  bcast_S_S100 : S_.BroadcastsInDim S100 (![] : Fin 0 → Fin S100.rank)
  reducesTo_S100_S_d0 : S100.ReducesTo [0] S_
  bcast_S_S1x100 : S_.BroadcastsInDim S1x100 (![] : Fin 0 → Fin S1x100.rank)
  reducesTo_S1x100_S_d0_1 : S1x100.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x100 1) : IVec S_ 1 :=
  let main_c_5 : IVec S_ 1 := constantI S_ 1 1#1
  let main_v17 : IVec S_ 1 := (fun x v => Host.reduce IntOp.andi x v reducesTo_S1x100_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1024x300 .f32) (main_arg1 : FVec F S100x600 .f32) (main_arg2 : FVec F S100 .f32) (main_arg3 : FVec F S1x100 .f32) (main_arg4 : FVec F S1 .f32) (main_arg5 : IVec S1024 32) : IVec S_ 1 :=
  let main_v0 : FVec F S1024x300 .f32 := Host.absf main_arg0
  let main_cst : FVec F S_ .f32 := constant S_ .f32 0x7F800000#32
  let main_v1 : FVec F S1024x300 .f32 := broadcastInDim S1024x300 ![] bcast_S_S1024x300 main_cst
  let main_v2 : IVec S1024x300 1 := cmpf .olt main_v0 main_v1
  let main_c : IVec S_ 1 := constantI S_ 1 1#1
  let main_v3 : IVec S_ 1 := (fun x v => Host.reduce IntOp.andi x v reducesTo_S1024x300_S_d0_1 h_S_) main_v2 main_c
  let main_v4 : FVec F S100x600 .f32 := Host.absf main_arg1
  let main_cst_0 : FVec F S_ .f32 := constant S_ .f32 0x7F800000#32
  let main_v5 : FVec F S100x600 .f32 := broadcastInDim S100x600 ![] bcast_S_S100x600 main_cst_0
  let main_v6 : IVec S100x600 1 := cmpf .olt main_v4 main_v5
  let main_c_1 : IVec S_ 1 := constantI S_ 1 1#1
  let main_v7 : IVec S_ 1 := (fun x v => Host.reduce IntOp.andi x v reducesTo_S100x600_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S1x100 .f32 := Host.absf main_arg3
  let main_cst_4 : FVec F S_ .f32 := constant S_ .f32 0x7F800000#32
  let main_v15 : FVec F S1x100 .f32 := broadcastInDim S1x100 ![] bcast_S_S1x100 main_cst_4
  let main_v16 : IVec S1x100 1 := cmpf .olt main_v14 main_v15
  fn_part1 (F := F) main_arg4 main_v13 main_v16
-- ==== Kernel.lean ====
abbrev S1024x300 : Shape := ⟨2, ![1024, 300]⟩
abbrev S100x600 : Shape := ⟨2, ![100, 600]⟩
abbrev S100 : Shape := ⟨1, ![100]⟩
abbrev S1x100 : Shape := ⟨2, ![1, 100]⟩
abbrev S1 : Shape := ⟨1, ![1]⟩
abbrev S1024 : Shape := ⟨1, ![1024]⟩
abbrev S_ : Shape := ⟨0, ![]⟩
abbrev S1x300 : Shape := ⟨2, ![1, 300]⟩
abbrev S1025x300 : Shape := ⟨2, ![1025, 300]⟩
abbrev S100x300 : Shape := ⟨2, ![100, 300]⟩
abbrev S1024x100 : Shape := ⟨2, ![1024, 100]⟩
abbrev S1025x100 : Shape := ⟨2, ![1025, 100]⟩
abbrev S1152x100 : Shape := ⟨2, ![1152, 100]⟩
abbrev S100x1152 : Shape := ⟨2, ![100, 1152]⟩
abbrev S1x1 : Shape := ⟨2, ![1, 1]⟩
abbrev S1024x1152 : Shape := ⟨2, ![1024, 1152]⟩
abbrev S128x100 : Shape := ⟨2, ![128, 100]⟩
abbrev S100x128 : Shape := ⟨2, ![100, 128]⟩
abbrev S128x128 : Shape := ⟨2, ![128, 128]⟩
abbrev S128x1 : Shape := ⟨2, ![128, 1]⟩
abbrev S1x128 : Shape := ⟨2, ![1, 128]⟩
abbrev S1024x1025 : Shape := ⟨2, ![1024, 1025]⟩
abbrev S1025 : Shape := ⟨1, ![1025]⟩
abbrev S1x1025 : Shape := ⟨2, ![1, 1025]⟩
abbrev S1024x1 : Shape := ⟨2, ![1024, 1]⟩

abbrev nBuf : Space → Nat
  | .hbm => 50
  | .vmem => 8
  | .smem => 0
  | _ => 0

abbrev bufTy : (tb : Table) → Fin (tcTables nBuf tb) → BufTy
  | .hbm, ⟨0, _⟩ => ⟨S1024x300, .f32⟩
  | .hbm, ⟨1, _⟩ => ⟨S100x600, .f32⟩
  | .hbm, ⟨2, _⟩ => ⟨S100, .f32⟩
  | .hbm, ⟨3, _⟩ => ⟨S1x100, .f32⟩
  | .hbm, ⟨4, _⟩ => ⟨S1, .f32⟩
  | .hbm, ⟨5, _⟩ => ⟨S1024, .i32⟩
  | .hbm, ⟨6, _⟩ => ⟨S_, .f32⟩
  | .hbm, ⟨7, _⟩ => ⟨S1x300, .f32⟩
  | .hbm, ⟨8, _⟩ => ⟨S1025x300, .f32⟩
  | .hbm, ⟨9, _⟩ => ⟨S100x300, .f32⟩
  | .hbm, ⟨10, _⟩ => ⟨S1024x100, .f32⟩
  | .hbm, ⟨11, _⟩ => ⟨S100x300, .f32⟩
  | .hbm, ⟨12, _⟩ => ⟨S1025x100, .f32⟩
  | .hbm, ⟨13, _⟩ => ⟨S1x100, .f32⟩
  | .hbm, ⟨14, _⟩ => ⟨S1025x100, .f32⟩
  | .hbm, ⟨15, _⟩ => ⟨S1025x100, .f32⟩
  | .hbm, ⟨16, _⟩ => ⟨S_, .i32⟩
  | .hbm, ⟨17, _⟩ => ⟨S_, .f32⟩
  | .hbm, ⟨18, _⟩ => ⟨S1152x100, .f32⟩
  | .hbm, ⟨19, _⟩ => ⟨S100x1152, .f32⟩
  | .hbm, ⟨20, _⟩ => ⟨S1x1, .f32⟩
  | .hbm, ⟨21, _⟩ => ⟨S1024x1152, .f32⟩
  | .hbm, ⟨22, _⟩ => ⟨S1024x1025, .f32⟩
  | .hbm, ⟨23, _⟩ => ⟨S1025, .i32⟩
  | .hbm, ⟨24, _⟩ => ⟨S1x1025, .i32⟩
  | .hbm, ⟨25, _⟩ => ⟨S1024x1, .i32⟩
  | .hbm, ⟨26, _⟩ => ⟨S1024x1025, .i32⟩
  | .hbm, ⟨27, _⟩ => ⟨S1024x1025, .i32⟩
  | .hbm, ⟨28, _⟩ => ⟨S1024x1025, .i1⟩
  | .hbm, ⟨29, _⟩ => ⟨S1024x1025, .f32⟩
  | .hbm, ⟨30, _⟩ => ⟨S1024x1025, .f32⟩
  | .hbm, ⟨31, _⟩ => ⟨S1024x1025, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024x1, .f32⟩
  | .hbm, ⟨42, _⟩ => ⟨S1024x1025, .f32⟩
  | .hbm, ⟨43, _⟩ => ⟨S1024x1025, .f32⟩
  | .hbm, ⟨44, _⟩ => ⟨S1024x1025, .f32⟩
  | .hbm, ⟨45, _⟩ => ⟨S_, .f32⟩
  | .hbm, ⟨46, _⟩ => ⟨S1024, .f32⟩
  | .hbm, ⟨47, _⟩ => ⟨S1024x1, .f32⟩
  | .hbm, ⟨48, _⟩ => ⟨S1024x1025, .f32⟩
  | .hbm, ⟨49, _⟩ => ⟨S1024x1025, .f32⟩
  | .local _ .vmem, ⟨0, _⟩ => ⟨S128x100, .f32⟩
  | .local _ .vmem, ⟨1, _⟩ => ⟨S128x100, .f32⟩
  | .local _ .vmem, ⟨2, _⟩ => ⟨S100x128, .f32⟩
  | .local _ .vmem, ⟨3, _⟩ => ⟨S100x128, .f32⟩
  | .local _ .vmem, ⟨4, _⟩ => ⟨S1x100, .f32⟩
  | .local _ .vmem, ⟨5, _⟩ => ⟨S1x1, .f32⟩
  | .local _ .vmem, ⟨6, _⟩ => ⟨S128x128, .f32⟩
  | .local _ .vmem, ⟨7, _⟩ => ⟨S128x128, .f32⟩
  | _, _ => ⟨S1024x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S100x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S1x300 : S_.BroadcastsInDim S1x300 (![] : Fin 0 → Fin S1x300.rank)
  concatenates_S1x300_S1024x300_S1025x300_d0 : Shape.Concatenates [S1x300, S1024x300] S1025x300 0
  slices_S100x600_S100x300_0_0 : S100x600.Slices ![0, 0] S100x300
  slices_S100x600_S100x300_0_300 : S100x600.Slices ![0, 300] S100x300
  bcast_S100_S1x100_1 : S100.BroadcastsInDim S1x100 (![1] : Fin 1 → Fin S1x100.rank)
  bcast_S1x100_S1025x100_0_1 : S1x100.BroadcastsInDim S1025x100 (![0, 1] : Fin 2 → Fin S1025x100.rank)
  pads_S1025x100_S1152x100_01270_000 : S1025x100.Pads (![0, 0] : Fin 2 → Nat) ![127, 0] ![0, 0] S1152x100
  h_S_ : 0 < S_.numel
  transposes_S1152x100_S100x1152_1_0 : S1152x100.Transposes [1, 0] S100x1152
  shapeCasts_S1_S1x1 : S1.ShapeCasts S1x1
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S1x100_S1x100_0_0 : ∀ a, (![0, 0] : Fin 2 → Nat) a + S1x100.size a ≤ S1x100.size a
  h_S1x100 : 0 < S1x100.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S128x100_o0_0_S128x1 : S128x100.Slices ![0, 0] S128x1
  slices_S100x128_o0_0_S1x128 : S100x128.Slices ![0, 0] S1x128
  broadcasts_S128x1_S128x128 : S128x1.Broadcasts S128x128
  broadcasts_S1x128_S128x128 : S1x128.Broadcasts S128x128
  slices_S1x100_o0_0_S1x1 : S1x100.Slices ![0, 0] S1x1
  slices_S128x100_o0_1_S128x1 : S128x100.Slices ![0, 1] S128x1
  slices_S100x128_o1_0_S1x128 : S100x128.Slices ![1, 0] S1x128
  slices_S1x100_o0_1_S1x1 : S1x100.Slices ![0, 1] S1x1
  slices_S128x100_o0_2_S128x1 : S128x100.Slices ![0, 2] S128x1
  slices_S100x128_o2_0_S1x128 : S100x128.Slices ![2, 0] S1x128
  slices_S1x100_o0_2_S1x1 : S1x100.Slices ![0, 2] S1x1
  slices_S128x100_o0_3_S128x1 : S128x100.Slices ![0, 3] S128x1
  slices_S100x128_o3_0_S1x128 : S100x128.Slices ![3, 0] S1x128
  slices_S1x100_o0_3_S1x1 : S1x100.Slices ![0, 3] S1x1
  slices_S128x100_o0_4_S128x1 : S128x100.Slices ![0, 4] S128x1
  slices_S100x128_o4_0_S1x128 : S100x128.Slices ![4, 0] S1x128
  slices_S1x100_o0_4_S1x1 : S1x100.Slices ![0, 4] S1x1
  slices_S128x100_o0_5_S128x1 : S128x100.Slices ![0, 5] S128x1
  slices_S100x128_o5_0_S1x128 : S100x128.Slices ![5, 0] S1x128
  slices_S1x100_o0_5_S1x1 : S1x100.Slices ![0, 5] S1x1
  slices_S128x100_o0_6_S128x1 : S128x100.Slices ![0, 6] S128x1
  slices_S100x128_o6_0_S1x128 : S100x128.Slices ![6, 0] S1x128
  slices_S1x100_o0_6_S1x1 : S1x100.Slices ![0, 6] S1x1
  slices_S128x100_o0_7_S128x1 : S128x100.Slices ![0, 7] S128x1
  slices_S100x128_o7_0_S1x128 : S100x128.Slices ![7, 0] S1x128
  slices_S1x100_o0_7_S1x1 : S1x100.Slices ![0, 7] S1x1
  slices_S128x100_o0_8_S128x1 : S128x100.Slices ![0, 8] S128x1
  slices_S100x128_o8_0_S1x128 : S100x128.Slices ![8, 0] S1x128
  slices_S1x100_o0_8_S1x1 : S1x100.Slices ![0, 8] S1x1
  slices_S128x100_o0_9_S128x1 : S128x100.Slices ![0, 9] S128x1
  slices_S100x128_o9_0_S1x128 : S100x128.Slices ![9, 0] S1x128
  slices_S1x100_o0_9_S1x1 : S1x100.Slices ![0, 9] S1x1
  slices_S128x100_o0_10_S128x1 : S128x100.Slices ![0, 10] S128x1
  slices_S100x128_o10_0_S1x128 : S100x128.Slices ![10, 0] S1x128
  slices_S1x100_o0_10_S1x1 : S1x100.Slices ![0, 10] S1x1
  slices_S128x100_o0_11_S128x1 : S128x100.Slices ![0, 11] S128x1
  slices_S100x128_o11_0_S1x128 : S100x128.Slices ![11, 0] S1x128
  slices_S1x100_o0_11_S1x1 : S1x100.Slices ![0, 11] S1x1
  slices_S128x100_o0_12_S128x1 : S128x100.Slices ![0, 12] S128x1
  slices_S100x128_o12_0_S1x128 : S100x128.Slices ![12, 0] S1x128
  slices_S1x100_o0_12_S1x1 : S1x100.Slices ![0, 12] S1x1
  slices_S128x100_o0_13_S128x1 : S128x100.Slices ![0, 13] S128x1
  slices_S100x128_o13_0_S1x128 : S100x128.Slices ![13, 0] S1x128
  slices_S1x100_o0_13_S1x1 : S1x100.Slices ![0, 13] S1x1
  slices_S128x100_o0_14_S128x1 : S128x100.Slices ![0, 14] S128x1
  slices_S100x128_o14_0_S1x128 : S100x128.Slices ![14, 0] S1x128
  slices_S1x100_o0_14_S1x1 : S1x100.Slices ![0, 14] S1x1
  slices_S128x100_o0_15_S128x1 : S128x100.Slices ![0, 15] S128x1
  slices_S100x128_o15_0_S1x128 : S100x128.Slices ![15, 0] S1x128
  slices_S1x100_o0_15_S1x1 : S1x100.Slices ![0, 15] S1x1
  slices_S128x100_o0_16_S128x1 : S128x100.Slices ![0, 16] S128x1
  slices_S100x128_o16_0_S1x128 : S100x128.Slices ![16, 0] S1x128
  slices_S1x100_o0_16_S1x1 : S1x100.Slices ![0, 16] S1x1
  slices_S128x100_o0_17_S128x1 : S128x100.Slices ![0, 17] S128x1
  slices_S100x128_o17_0_S1x128 : S100x128.Slices ![17, 0] S1x128
  slices_S1x100_o0_17_S1x1 : S1x100.Slices ![0, 17] S1x1
  slices_S128x100_o0_18_S128x1 : S128x100.Slices ![0, 18] S128x1
  slices_S100x128_o18_0_S1x128 : S100x128.Slices ![18, 0] S1x128
  slices_S1x100_o0_18_S1x1 : S1x100.Slices ![0, 18] S1x1
  slices_S128x100_o0_19_S128x1 : S128x100.Slices ![0, 19] S128x1
  slices_S100x128_o19_0_S1x128 : S100x128.Slices ![19, 0] S1x128
  slices_S1x100_o0_19_S1x1 : S1x100.Slices ![0, 19] S1x1
  slices_S128x100_o0_20_S128x1 : S128x100.Slices ![0, 20] S128x1
  slices_S100x128_o20_0_S1x128 : S100x128.Slices ![20, 0] S1x128
  slices_S1x100_o0_20_S1x1 : S1x100.Slices ![0, 20] S1x1
  slices_S128x100_o0_21_S128x1 : S128x100.Slices ![0, 21] S128x1
  slices_S100x128_o21_0_S1x128 : S100x128.Slices ![21, 0] S1x128
  slices_S1x100_o0_21_S1x1 : S1x100.Slices ![0, 21] S1x1
  slices_S128x100_o0_22_S128x1 : S128x100.Slices ![0, 22] S128x1
  slices_S100x128_o22_0_S1x128 : S100x128.Slices ![22, 0] S1x128
  slices_S1x100_o0_22_S1x1 : S1x100.Slices ![0, 22] S1x1
  slices_S128x100_o0_23_S128x1 : S128x100.Slices ![0, 23] S128x1
  slices_S100x128_o23_0_S1x128 : S100x128.Slices ![23, 0] S1x128
  slices_S1x100_o0_23_S1x1 : S1x100.Slices ![0, 23] S1x1
  slices_S128x100_o0_24_S128x1 : S128x100.Slices ![0, 24] S128x1
  slices_S100x128_o24_0_S1x128 : S100x128.Slices ![24, 0] S1x128
  slices_S1x100_o0_24_S1x1 : S1x100.Slices ![0, 24] S1x1
  slices_S128x100_o0_25_S128x1 : S128x100.Slices ![0, 25] S128x1
  slices_S100x128_o25_0_S1x128 : S100x128.Slices ![25, 0] S1x128
  slices_S1x100_o0_25_S1x1 : S1x100.Slices ![0, 25] S1x1
  slices_S128x100_o0_26_S128x1 : S128x100.Slices ![0, 26] S128x1
  slices_S100x128_o26_0_S1x128 : S100x128.Slices ![26, 0] S1x128
  slices_S1x100_o0_26_S1x1 : S1x100.Slices ![0, 26] S1x1
  slices_S128x100_o0_27_S128x1 : S128x100.Slices ![0, 27] S128x1
  slices_S100x128_o27_0_S1x128 : S100x128.Slices ![27, 0] S1x128
  slices_S1x100_o0_27_S1x1 : S1x100.Slices ![0, 27] S1x1
  slices_S128x100_o0_28_S128x1 : S128x100.Slices ![0, 28] S128x1
  slices_S100x128_o28_0_S1x128 : S100x128.Slices ![28, 0] S1x128
  slices_S1x100_o0_28_S1x1 : S1x100.Slices ![0, 28] S1x1
  slices_S128x100_o0_29_S128x1 : S128x100.Slices ![0, 29] S128x1
  slices_S100x128_o29_0_S1x128 : S100x128.Slices ![29, 0] S1x128
  slices_S1x100_o0_29_S1x1 : S1x100.Slices ![0, 29] S1x1
  slices_S128x100_o0_30_S128x1 : S128x100.Slices ![0, 30] S128x1
  slices_S100x128_o30_0_S1x128 : S100x128.Slices ![30, 0] S1x128
  slices_S1x100_o0_30_S1x1 : S1x100.Slices ![0, 30] S1x1
  slices_S128x100_o0_31_S128x1 : S128x100.Slices ![0, 31] S128x1
  slices_S100x128_o31_0_S1x128 : S100x128.Slices ![31, 0] S1x128
  slices_S1x100_o0_31_S1x1 : S1x100.Slices ![0, 31] S1x1
  slices_S128x100_o0_32_S128x1 : S128x100.Slices ![0, 32] S128x1
  slices_S100x128_o32_0_S1x128 : S100x128.Slices ![32, 0] S1x128
  slices_S1x100_o0_32_S1x1 : S1x100.Slices ![0, 32] S1x1
  slices_S128x100_o0_33_S128x1 : S128x100.Slices ![0, 33] S128x1
  slices_S100x128_o33_0_S1x128 : S100x128.Slices ![33, 0] S1x128
  slices_S1x100_o0_33_S1x1 : S1x100.Slices ![0, 33] S1x1
  slices_S128x100_o0_34_S128x1 : S128x100.Slices ![0, 34] S128x1
  slices_S100x128_o34_0_S1x128 : S100x128.Slices ![34, 0] S1x128
  slices_S1x100_o0_34_S1x1 : S1x100.Slices ![0, 34] S1x1
  slices_S128x100_o0_35_S128x1 : S128x100.Slices ![0, 35] S128x1
  slices_S100x128_o35_0_S1x128 : S100x128.Slices ![35, 0] S1x128
  slices_S1x100_o0_35_S1x1 : S1x100.Slices ![0, 35] S1x1
  slices_S128x100_o0_36_S128x1 : S128x100.Slices ![0, 36] S128x1
  slices_S100x128_o36_0_S1x128 : S100x128.Slices ![36, 0] S1x128
  slices_S1x100_o0_36_S1x1 : S1x100.Slices ![0, 36] S1x1
  slices_S128x100_o0_37_S128x1 : S128x100.Slices ![0, 37] S128x1
  slices_S100x128_o37_0_S1x128 : S100x128.Slices ![37, 0] S1x128
  slices_S1x100_o0_37_S1x1 : S1x100.Slices ![0, 37] S1x1
  slices_S128x100_o0_38_S128x1 : S128x100.Slices ![0, 38] S128x1
  slices_S100x128_o38_0_S1x128 : S100x128.Slices ![38, 0] S1x128
  slices_S1x100_o0_38_S1x1 : S1x100.Slices ![0, 38] S1x1
  slices_S128x100_o0_39_S128x1 : S128x100.Slices ![0, 39] S128x1
  slices_S100x128_o39_0_S1x128 : S100x128.Slices ![39, 0] S1x128
  slices_S1x100_o0_39_S1x1 : S1x100.Slices ![0, 39] S1x1
  slices_S128x100_o0_40_S128x1 : S128x100.Slices ![0, 40] S128x1
  slices_S100x128_o40_0_S1x128 : S100x128.Slices ![40, 0] S1x128
  slices_S1x100_o0_40_S1x1 : S1x100.Slices ![0, 40] S1x1
  slices_S128x100_o0_41_S128x1 : S128x100.Slices ![0, 41] S128x1
  slices_S100x128_o41_0_S1x128 : S100x128.Slices ![41, 0] S1x128
  slices_S1x100_o0_41_S1x1 : S1x100.Slices ![0, 41] S1x1
  slices_S128x100_o0_42_S128x1 : S128x100.Slices ![0, 42] S128x1
  slices_S100x128_o42_0_S1x128 : S100x128.Slices ![42, 0] S1x128
  slices_S1x100_o0_42_S1x1 : S1x100.Slices ![0, 42] S1x1
  slices_S128x100_o0_43_S128x1 : S128x100.Slices ![0, 43] S128x1
  slices_S100x128_o43_0_S1x128 : S100x128.Slices ![43, 0] S1x128
  slices_S1x100_o0_43_S1x1 : S1x100.Slices ![0, 43] S1x1
  slices_S128x100_o0_44_S128x1 : S128x100.Slices ![0, 44] S128x1
  slices_S100x128_o44_0_S1x128 : S100x128.Slices ![44, 0] S1x128
  slices_S1x100_o0_44_S1x1 : S1x100.Slices ![0, 44] S1x1
  slices_S128x100_o0_45_S128x1 : S128x100.Slices ![0, 45] S128x1
  slices_S100x128_o45_0_S1x128 : S100x128.Slices ![45, 0] S1x128
  slices_S1x100_o0_45_S1x1 : S1x100.Slices ![0, 45] S1x1
  slices_S128x100_o0_46_S128x1 : S128x100.Slices ![0, 46] S128x1
  slices_S100x128_o46_0_S1x128 : S100x128.Slices ![46, 0] S1x128
  slices_S1x100_o0_46_S1x1 : S1x100.Slices ![0, 46] S1x1
  slices_S128x100_o0_47_S128x1 : S128x100.Slices ![0, 47] S128x1
  slices_S100x128_o47_0_S1x128 : S100x128.Slices ![47, 0] S1x128
  slices_S1x100_o0_47_S1x1 : S1x100.Slices ![0, 47] S1x1
  slices_S128x100_o0_48_S128x1 : S128x100.Slices ![0, 48] S128x1
  slices_S100x128_o48_0_S1x128 : S100x128.Slices ![48, 0] S1x128
  slices_S1x100_o0_48_S1x1 : S1x100.Slices ![0, 48] S1x1
  slices_S128x100_o0_49_S128x1 : S128x100.Slices ![0, 49] S128x1
  slices_S100x128_o49_0_S1x128 : S100x128.Slices ![49, 0] S1x128
  slices_S1x100_o0_49_S1x1 : S1x100.Slices ![0, 49] S1x1
  slices_S128x100_o0_50_S128x1 : S128x100.Slices ![0, 50] S128x1
  slices_S100x128_o50_0_S1x128 : S100x128.Slices ![50, 0] S1x128
  slices_S1x100_o0_50_S1x1 : S1x100.Slices ![0, 50] S1x1
  slices_S128x100_o0_51_S128x1 : S128x100.Slices ![0, 51] S128x1
  slices_S100x128_o51_0_S1x128 : S100x128.Slices ![51, 0] S1x128
  slices_S1x100_o0_51_S1x1 : S1x100.Slices ![0, 51] S1x1
  slices_S128x100_o0_52_S128x1 : S128x100.Slices ![0, 52] S128x1
  slices_S100x128_o52_0_S1x128 : S100x128.Slices ![52, 0] S1x128
  slices_S1x100_o0_52_S1x1 : S1x100.Slices ![0, 52] S1x1
  slices_S128x100_o0_53_S128x1 : S128x100.Slices ![0, 53] S128x1
  slices_S100x128_o53_0_S1x128 : S100x128.Slices ![53, 0] S1x128
  slices_S1x100_o0_53_S1x1 : S1x100.Slices ![0, 53] S1x1
  slices_S128x100_o0_54_S128x1 : S128x100.Slices ![0, 54] S128x1
  slices_S100x128_o54_0_S1x128 : S100x128.Slices ![54, 0] S1x128
  slices_S1x100_o0_54_S1x1 : S1x100.Slices ![0, 54] S1x1
  slices_S128x100_o0_55_S128x1 : S128x100.Slices ![0, 55] S128x1
  slices_S100x128_o55_0_S1x128 : S100x128.Slices ![55, 0] S1x128
  slices_S1x100_o0_55_S1x1 : S1x100.Slices ![0, 55] S1x1
  slices_S128x100_o0_56_S128x1 : S128x100.Slices ![0, 56] S128x1
  slices_S100x128_o56_0_S1x128 : S100x128.Slices ![56, 0] S1x128
  slices_S1x100_o0_56_S1x1 : S1x100.Slices ![0, 56] S1x1
  slices_S128x100_o0_57_S128x1 : S128x100.Slices ![0, 57] S128x1
  slices_S100x128_o57_0_S1x128 : S100x128.Slices ![57, 0] S1x128
  slices_S1x100_o0_57_S1x1 : S1x100.Slices ![0, 57] S1x1
  slices_S128x100_o0_58_S128x1 : S128x100.Slices ![0, 58] S128x1
  slices_S100x128_o58_0_S1x128 : S100x128.Slices ![58, 0] S1x128
  slices_S1x100_o0_58_S1x1 : S1x100.Slices ![0, 58] S1x1
  slices_S128x100_o0_59_S128x1 : S128x100.Slices ![0, 59] S128x1
  slices_S100x128_o59_0_S1x128 : S100x128.Slices ![59, 0] S1x128
  slices_S1x100_o0_59_S1x1 : S1x100.Slices ![0, 59] S1x1
  slices_S128x100_o0_60_S128x1 : S128x100.Slices ![0, 60] S128x1
  slices_S100x128_o60_0_S1x128 : S100x128.Slices ![60, 0] S1x128
  slices_S1x100_o0_60_S1x1 : S1x100.Slices ![0, 60] S1x1
  slices_S128x100_o0_61_S128x1 : S128x100.Slices ![0, 61] S128x1
  slices_S100x128_o61_0_S1x128 : S100x128.Slices ![61, 0] S1x128
  slices_S1x100_o0_61_S1x1 : S1x100.Slices ![0, 61] S1x1
  slices_S128x100_o0_62_S128x1 : S128x100.Slices ![0, 62] S128x1
  slices_S100x128_o62_0_S1x128 : S100x128.Slices ![62, 0] S1x128
  slices_S1x100_o0_62_S1x1 : S1x100.Slices ![0, 62] S1x1
  slices_S128x100_o0_63_S128x1 : S128x100.Slices ![0, 63] S128x1
  slices_S100x128_o63_0_S1x128 : S100x128.Slices ![63, 0] S1x128
  slices_S1x100_o0_63_S1x1 : S1x100.Slices ![0, 63] S1x1
  slices_S128x100_o0_64_S128x1 : S128x100.Slices ![0, 64] S128x1
  slices_S100x128_o64_0_S1x128 : S100x128.Slices ![64, 0] S1x128
  slices_S1x100_o0_64_S1x1 : S1x100.Slices ![0, 64] S1x1
  slices_S128x100_o0_65_S128x1 : S128x100.Slices ![0, 65] S128x1
  slices_S100x128_o65_0_S1x128 : S100x128.Slices ![65, 0] S1x128
  slices_S1x100_o0_65_S1x1 : S1x100.Slices ![0, 65] S1x1
  slices_S128x100_o0_66_S128x1 : S128x100.Slices ![0, 66] S128x1
  slices_S100x128_o66_0_S1x128 : S100x128.Slices ![66, 0] S1x128
  slices_S1x100_o0_66_S1x1 : S1x100.Slices ![0, 66] S1x1
  slices_S128x100_o0_67_S128x1 : S128x100.Slices ![0, 67] S128x1
  slices_S100x128_o67_0_S1x128 : S100x128.Slices ![67, 0] S1x128
  slices_S1x100_o0_67_S1x1 : S1x100.Slices ![0, 67] S1x1
  slices_S128x100_o0_68_S128x1 : S128x100.Slices ![0, 68] S128x1
  slices_S100x128_o68_0_S1x128 : S100x128.Slices ![68, 0] S1x128
  slices_S1x100_o0_68_S1x1 : S1x100.Slices ![0, 68] S1x1
  slices_S128x100_o0_69_S128x1 : S128x100.Slices ![0, 69] S128x1
  slices_S100x128_o69_0_S1x128 : S100x128.Slices ![69, 0] S1x128
  slices_S1x100_o0_69_S1x1 : S1x100.Slices ![0, 69] S1x1
  slices_S128x100_o0_70_S128x1 : S128x100.Slices ![0, 70] S128x1
  slices_S100x128_o70_0_S1x128 : S100x128.Slices ![70, 0] S1x128
  slices_S1x100_o0_70_S1x1 : S1x100.Slices ![0, 70] S1x1
  slices_S128x100_o0_71_S128x1 : S128x100.Slices ![0, 71] S128x1
  slices_S100x128_o71_0_S1x128 : S100x128.Slices ![71, 0] S1x128
  slices_S1x100_o0_71_S1x1 : S1x100.Slices ![0, 71] S1x1
  slices_S128x100_o0_72_S128x1 : S128x100.Slices ![0, 72] S128x1
  slices_S100x128_o72_0_S1x128 : S100x128.Slices ![72, 0] S1x128
  slices_S1x100_o0_72_S1x1 : S1x100.Slices ![0, 72] S1x1
  slices_S128x100_o0_73_S128x1 : S128x100.Slices ![0, 73] S128x1
  slices_S100x128_o73_0_S1x128 : S100x128.Slices ![73, 0] S1x128
  slices_S1x100_o0_73_S1x1 : S1x100.Slices ![0, 73] S1x1
  slices_S128x100_o0_74_S128x1 : S128x100.Slices ![0, 74] S128x1
  slices_S100x128_o74_0_S1x128 : S100x128.Slices ![74, 0] S1x128
  slices_S1x100_o0_74_S1x1 : S1x100.Slices ![0, 74] S1x1
  slices_S128x100_o0_75_S128x1 : S128x100.Slices ![0, 75] S128x1
  slices_S100x128_o75_0_S1x128 : S100x128.Slices ![75, 0] S1x128
  slices_S1x100_o0_75_S1x1 : S1x100.Slices ![0, 75] S1x1
  slices_S128x100_o0_76_S128x1 : S128x100.Slices ![0, 76] S128x1
  slices_S100x128_o76_0_S1x128 : S100x128.Slices ![76, 0] S1x128
  slices_S1x100_o0_76_S1x1 : S1x100.Slices ![0, 76] S1x1
  slices_S128x100_o0_77_S128x1 : S128x100.Slices ![0, 77] S128x1
  slices_S100x128_o77_0_S1x128 : S100x128.Slices ![77, 0] S1x128
  slices_S1x100_o0_77_S1x1 : S1x100.Slices ![0, 77] S1x1
  slices_S128x100_o0_78_S128x1 : S128x100.Slices ![0, 78] S128x1
  slices_S100x128_o78_0_S1x128 : S100x128.Slices ![78, 0] S1x128
  slices_S1x100_o0_78_S1x1 : S1x100.Slices ![0, 78] S1x1
  slices_S128x100_o0_79_S128x1 : S128x100.Slices ![0, 79] S128x1
  slices_S100x128_o79_0_S1x128 : S100x128.Slices ![79, 0] S1x128
  slices_S1x100_o0_79_S1x1 : S1x100.Slices ![0, 79] S1x1
  slices_S128x100_o0_80_S128x1 : S128x100.Slices ![0, 80] S128x1
  slices_S100x128_o80_0_S1x128 : S100x128.Slices ![80, 0] S1x128
  slices_S1x100_o0_80_S1x1 : S1x100.Slices ![0, 80] S1x1
  slices_S128x100_o0_81_S128x1 : S128x100.Slices ![0, 81] S128x1
  slices_S100x128_o81_0_S1x128 : S100x128.Slices ![81, 0] S1x128
  slices_S1x100_o0_81_S1x1 : S1x100.Slices ![0, 81] S1x1
  slices_S128x100_o0_82_S128x1 : S128x100.Slices ![0, 82] S128x1
  slices_S100x128_o82_0_S1x128 : S100x128.Slices ![82, 0] S1x128
  slices_S1x100_o0_82_S1x1 : S1x100.Slices ![0, 82] S1x1
  slices_S128x100_o0_83_S128x1 : S128x100.Slices ![0, 83] S128x1
  slices_S100x128_o83_0_S1x128 : S100x128.Slices ![83, 0] S1x128
  slices_S1x100_o0_83_S1x1 : S1x100.Slices ![0, 83] S1x1
  slices_S128x100_o0_84_S128x1 : S128x100.Slices ![0, 84] S128x1
  slices_S100x128_o84_0_S1x128 : S100x128.Slices ![84, 0] S1x128
  slices_S1x100_o0_84_S1x1 : S1x100.Slices ![0, 84] S1x1
  slices_S128x100_o0_85_S128x1 : S128x100.Slices ![0, 85] S128x1
  slices_S100x128_o85_0_S1x128 : S100x128.Slices ![85, 0] S1x128
  slices_S1x100_o0_85_S1x1 : S1x100.Slices ![0, 85] S1x1
  slices_S128x100_o0_86_S128x1 : S128x100.Slices ![0, 86] S128x1
  slices_S100x128_o86_0_S1x128 : S100x128.Slices ![86, 0] S1x128
  slices_S1x100_o0_86_S1x1 : S1x100.Slices ![0, 86] S1x1
  slices_S128x100_o0_87_S128x1 : S128x100.Slices ![0, 87] S128x1
  slices_S100x128_o87_0_S1x128 : S100x128.Slices ![87, 0] S1x128
  slices_S1x100_o0_87_S1x1 : S1x100.Slices ![0, 87] S1x1
  slices_S128x100_o0_88_S128x1 : S128x100.Slices ![0, 88] S128x1
  slices_S100x128_o88_0_S1x128 : S100x128.Slices ![88, 0] S1x128
  slices_S1x100_o0_88_S1x1 : S1x100.Slices ![0, 88] S1x1
  slices_S128x100_o0_89_S128x1 : S128x100.Slices ![0, 89] S128x1
  slices_S100x128_o89_0_S1x128 : S100x128.Slices ![89, 0] S1x128
  slices_S1x100_o0_89_S1x1 : S1x100.Slices ![0, 89] S1x1
  slices_S128x100_o0_90_S128x1 : S128x100.Slices ![0, 90] S128x1
  slices_S100x128_o90_0_S1x128 : S100x128.Slices ![90, 0] S1x128
  slices_S1x100_o0_90_S1x1 : S1x100.Slices ![0, 90] S1x1
  slices_S128x100_o0_91_S128x1 : S128x100.Slices ![0, 91] S128x1
  slices_S100x128_o91_0_S1x128 : S100x128.Slices ![91, 0] S1x128
  slices_S1x100_o0_91_S1x1 : S1x100.Slices ![0, 91] S1x1
  slices_S128x100_o0_92_S128x1 : S128x100.Slices ![0, 92] S128x1
  slices_S100x128_o92_0_S1x128 : S100x128.Slices ![92, 0] S1x128
  slices_S1x100_o0_92_S1x1 : S1x100.Slices ![0, 92] S1x1
  slices_S128x100_o0_93_S128x1 : S128x100.Slices ![0, 93] S128x1
  slices_S100x128_o93_0_S1x128 : S100x128.Slices ![93, 0] S1x128
  slices_S1x100_o0_93_S1x1 : S1x100.Slices ![0, 93] S1x1
  slices_S128x100_o0_94_S128x1 : S128x100.Slices ![0, 94] S128x1
  slices_S100x128_o94_0_S1x128 : S100x128.Slices ![94, 0] S1x128
  slices_S1x100_o0_94_S1x1 : S1x100.Slices ![0, 94] S1x1
  slices_S128x100_o0_95_S128x1 : S128x100.Slices ![0, 95] S128x1
  slices_S100x128_o95_0_S1x128 : S100x128.Slices ![95, 0] S1x128
  slices_S1x100_o0_95_S1x1 : S1x100.Slices ![0, 95] S1x1
  slices_S128x100_o0_96_S128x1 : S128x100.Slices ![0, 96] S128x1
  slices_S100x128_o96_0_S1x128 : S100x128.Slices ![96, 0] S1x128
  slices_S1x100_o0_96_S1x1 : S1x100.Slices ![0, 96] S1x1
  slices_S128x100_o0_97_S128x1 : S128x100.Slices ![0, 97] S128x1
  slices_S100x128_o97_0_S1x128 : S100x128.Slices ![97, 0] S1x128
  slices_S1x100_o0_97_S1x1 : S1x100.Slices ![0, 97] S1x1
  slices_S128x100_o0_98_S128x1 : S128x100.Slices ![0, 98] S128x1
  slices_S100x128_o98_0_S1x128 : S100x128.Slices ![98, 0] S1x128
  slices_S1x100_o0_98_S1x1 : S1x100.Slices ![0, 98] S1x1
  slices_S128x100_o0_99_S128x1 : S128x100.Slices ![0, 99] S128x1
  slices_S100x128_o99_0_S1x128 : S100x128.Slices ![99, 0] S1x128
  slices_S1x100_o0_99_S1x1 : S1x100.Slices ![0, 99] S1x1
  inb_S128x128_S128x128_0_0 : ∀ a, (![0, 0] : Fin 2 → Nat) a + S128x128.size a ≤ S128x128.size a
  h_S128x128 : 0 < S128x128.numel
  slices_S1024x1152_S1024x1025_0_0 : S1024x1152.Slices ![0, 0] S1024x1025
  bcast_S1025_S1x1025_1 : S1025.BroadcastsInDim S1x1025 (![1] : Fin 1 → Fin S1x1025.rank)
  bcast_S1024_S1024x1_0 : S1024.BroadcastsInDim S1024x1 (![0] : Fin 1 → Fin S1024x1.rank)
  bcast_S1x1025_S1024x1025_0_1 : S1x1025.BroadcastsInDim S1024x1025 (![0, 1] : Fin 2 → Fin S1024x1025.rank)
  bcast_S1024x1_S1024x1025_0_1 : S1024x1.BroadcastsInDim S1024x1025 (![0, 1] : Fin 2 → Fin S1024x1025.rank)
  reducesTo_S1024x1025_S_d0_1 : S1024x1025.ReducesTo [0, 1] S_
  reducesTo_S1024x1025_S1024_d1 : S1024x1025.ReducesTo [1] S1024
  bcast_S_S1024 : S_.BroadcastsInDim S1024 (![] : Fin 0 → Fin S1024.rank)
  dot_S1024x300_S100x300_S1024x100_1_1_0_0_n_n_wf : DotDims.WF S1024x300 S100x300 S1024x100 [1] [1] [0] [0] [] []
  dot_S1025x300_S100x300_S1025x100_1_1_0_0_n_n_wf : DotDims.WF S1025x300 S100x300 S1025x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x100.size a ≤ S1024x100.size a
  hwx0_0 : ∀ i : grid0.Coords, EltTy.bits .f32 = 32 ∨ (Rect.block (s := S1024x100) S128x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x1152.size a
  hwx0_1 : ∀ i : grid0.Coords, EltTy.bits .f32 = 32 ∨ (Rect.block (s := S100x1152) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S1024x1152.size a
  hwx0_4 : ∀ i : grid0.Coords, EltTy.bits .f32 = 32 ∨ (Rect.block (s := S1024x1152) S128x128.size (cc0_transform_4 i) (hinb0_4 i)).WholeWords (EltTy.packing .f32)

variable [Facts₀]

def dot_S1024x300_S100x300_S1024x100_1_1_0_0_n_n : DotDims S1024x300 S100x300 S1024x100 where
  lhsContracting := [1]
  rhsContracting := [1]
  lhsNonContracting := [0]
  rhsNonContracting := [0]
  lhsBatch := []
  rhsBatch := []
  wf := dot_S1024x300_S100x300_S1024x100_1_1_0_0_n_n_wf
def dot_S1025x300_S100x300_S1025x100_1_1_0_0_n_n : DotDims S1025x300 S100x300 S1025x100 where
  lhsContracting := [1]
  rhsContracting := [1]
  lhsNonContracting := [0]
  rhsNonContracting := [0]
  lhsBatch := []
  rhsBatch := []
  wf := dot_S1025x300_S100x300_S1025x100_1_1_0_0_n_n_wf

abbrev win0_0 : Pipeline.Window sig grid0 :=
  Pipeline.Window.ofSpec (Memref.whole main_v3) S128x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S100x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x300 : Shape := ⟨2, ![1024, 300]⟩
abbrev S100x600 : Shape := ⟨2, ![100, 600]⟩
abbrev S100 : Shape := ⟨1, ![100]⟩
abbrev S1x100 : Shape := ⟨2, ![1, 100]⟩
abbrev S1 : Shape := ⟨1, ![1]⟩
abbrev S1024 : Shape := ⟨1, ![1024]⟩
abbrev S_ : Shape := ⟨0, ![]⟩
abbrev S1x300 : Shape := ⟨2, ![1, 300]⟩
abbrev S1025x300 : Shape := ⟨2, ![1025, 300]⟩
abbrev S100x300 : Shape := ⟨2, ![100, 300]⟩
abbrev S1024x100 : Shape := ⟨2, ![1024, 100]⟩
abbrev S1025x100 : Shape := ⟨2, ![1025, 100]⟩
abbrev S1024x1x100 : Shape := ⟨3, ![1024, 1, 100]⟩
abbrev S1x1025x100 : Shape := ⟨3, ![1, 1025, 100]⟩
abbrev S1024x1025x100 : Shape := ⟨3, ![1024, 1025, 100]⟩
abbrev S1x1x100 : Shape := ⟨3, ![1, 1, 100]⟩
abbrev S1024x1025x1 : Shape := ⟨3, ![1024, 1025, 1]⟩
abbrev S1024x1025 : Shape := ⟨2, ![1024, 1025]⟩
abbrev S1025 : Shape := ⟨1, ![1025]⟩
abbrev S1x1025 : Shape := ⟨2, ![1, 1025]⟩
abbrev S1024x1 : Shape := ⟨2, ![1024, 1]⟩

abbrev nBuf : Space → Nat
  | .hbm => 61
  | .vmem => 0
  | .smem => 0
  | _ => 0

abbrev bufTy : (tb : Table) → Fin (tcTables nBuf tb) → BufTy
  | .hbm, ⟨0, _⟩ => ⟨S1024x300, .f32⟩
  | .hbm, ⟨1, _⟩ => ⟨S100x600, .f32⟩
  | .hbm, ⟨2, _⟩ => ⟨S100, .f32⟩
  | .hbm, ⟨3, _⟩ => ⟨S1x100, .f32⟩
  | .hbm, ⟨4, _⟩ => ⟨S1, .f32⟩
  | .hbm, ⟨5, _⟩ => ⟨S1024, .i32⟩
  | .hbm, ⟨6, _⟩ => ⟨S_, .f32⟩
  | .hbm, ⟨7, _⟩ => ⟨S1x300, .f32⟩
  | .hbm, ⟨8, _⟩ => ⟨S1025x300, .f32⟩
  | .hbm, ⟨9, _⟩ => ⟨S100x300, .f32⟩
  | .hbm, ⟨10, _⟩ => ⟨S1024x100, .f32⟩
  | .hbm, ⟨11, _⟩ => ⟨S100x300, .f32⟩
  | .hbm, ⟨12, _⟩ => ⟨S1025x100, .f32⟩
  | .hbm, ⟨13, _⟩ => ⟨S1024x1x100, .f32⟩
  | .hbm, ⟨14, _⟩ => ⟨S1x1025x100, .f32⟩
  | .hbm, ⟨15, _⟩ => ⟨S1024x1025x100, .f32⟩
  | .hbm, ⟨16, _⟩ => ⟨S1024x1025x100, .f32⟩
  | .hbm, ⟨17, _⟩ => ⟨S1024x1025x100, .f32⟩
  | .hbm, ⟨18, _⟩ => ⟨S1x1x100, .f32⟩
  | .hbm, ⟨19, _⟩ => ⟨S1024x1025x100, .f32⟩
  | .hbm, ⟨20, _⟩ => ⟨S1024x1025x100, .f32⟩
  | .hbm, ⟨21, _⟩ => ⟨S1024x1025x100, .f32⟩
  | .hbm, ⟨22, _⟩ => ⟨S1024x1025x100, .f32⟩
  | .hbm, ⟨23, _⟩ => ⟨S_, .f32⟩
  | .hbm, ⟨24, _⟩ => ⟨S1024x1025x100, .f32⟩
  | .hbm, ⟨25, _⟩ => ⟨S1024x1025x100, .f32⟩
  | .hbm, ⟨26, _⟩ => ⟨S_, .f32⟩
  | .hbm, ⟨27, _⟩ => ⟨S1024x1025x100, .f32⟩
  | .hbm, ⟨28, _⟩ => ⟨S1024x1025x100, .f32⟩
  | .hbm, ⟨29, _⟩ => ⟨S1024x1025x1, .f32⟩
  | .hbm, ⟨30, _⟩ => ⟨S1024x1025, .f32⟩
  | .hbm, ⟨31, _⟩ => ⟨S_, .f32⟩
  | .hbm, ⟨32, _⟩ => ⟨S1024x1025, .f32⟩
  | .hbm, ⟨33, _⟩ => ⟨S1024x1025, .f32⟩
  | .hbm, ⟨34, _⟩ => ⟨S1025, .i32⟩
  | .hbm, ⟨35, _⟩ => ⟨S1x1025, .i32⟩
  | .hbm, ⟨36, _⟩ => ⟨S1024x1, .i32⟩
  | .hbm, ⟨37, _⟩ => ⟨S1024x1025, .i32⟩
  | .hbm, ⟨38, _⟩ => ⟨S1024x1025, .i32⟩
  | .hbm, ⟨39, _⟩ => ⟨S1024x1025, .i1⟩
  | .hbm, ⟨40, _⟩ => ⟨S1024x1025, .f32⟩
  | .hbm, ⟨41, _⟩ => ⟨S1024x1025, .f32⟩
  | .hbm, ⟨42, _⟩ => ⟨S1024x1025, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024x1, .f32⟩
  | .hbm, ⟨53, _⟩ => ⟨S1024x1025, .f32⟩
  | .hbm, ⟨54, _⟩ => ⟨S1024x1025, .f32⟩
  | .hbm, ⟨55, _⟩ => ⟨S1024x1025, .f32⟩
  | .hbm, ⟨56, _⟩ => ⟨S_, .f32⟩
  | .hbm, ⟨57, _⟩ => ⟨S1024, .f32⟩
  | .hbm, ⟨58, _⟩ => ⟨S1024x1, .f32⟩
  | .hbm, ⟨59, _⟩ => ⟨S1024x1025, .f32⟩
  | .hbm, ⟨60, _⟩ => ⟨S1024x1025, .f32⟩
  | _, _ => ⟨S1024x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  bcast_S_S1x300 : S_.BroadcastsInDim S1x300 (![] : Fin 0 → Fin S1x300.rank)
  concatenates_S1x300_S1024x300_S1025x300_d0 : Shape.Concatenates [S1x300, S1024x300] S1025x300 0
  slices_S100x600_S100x300_0_0 : S100x600.Slices ![0, 0] S100x300
  slices_S100x600_S100x300_0_300 : S100x600.Slices ![0, 300] S100x300
  bcast_S1024x100_S1024x1x100_0_2 : S1024x100.BroadcastsInDim S1024x1x100 (![0, 2] : Fin 2 → Fin S1024x1x100.rank)
  bcast_S1025x100_S1x1025x100_1_2 : S1025x100.BroadcastsInDim S1x1025x100 (![1, 2] : Fin 2 → Fin S1x1025x100.rank)
  bcast_S1024x1x100_S1024x1025x100_0_1_2 : S1024x1x100.BroadcastsInDim S1024x1025x100 (![0, 1, 2] : Fin 3 → Fin S1024x1025x100.rank)
  bcast_S1x1025x100_S1024x1025x100_0_1_2 : S1x1025x100.BroadcastsInDim S1024x1025x100 (![0, 1, 2] : Fin 3 → Fin S1024x1025x100.rank)
  bcast_S100_S1x1x100_2 : S100.BroadcastsInDim S1x1x100 (![2] : Fin 1 → Fin S1x1x100.rank)
  bcast_S1x1x100_S1024x1025x100_0_1_2 : S1x1x100.BroadcastsInDim S1024x1025x100 (![0, 1, 2] : Fin 3 → Fin S1024x1025x100.rank)
  bcast_S_S1024x1025x100 : S_.BroadcastsInDim S1024x1025x100 (![] : Fin 0 → Fin S1024x1025x100.rank)
  shapeCasts_S1024x1025x1_S1024x1025 : S1024x1025x1.ShapeCasts S1024x1025
  shapeCasts_S1_S_ : S1.ShapeCasts S_
  bcast_S_S1024x1025 : S_.BroadcastsInDim S1024x1025 (![] : Fin 0 → Fin S1024x1025.rank)
  bcast_S1025_S1x1025_1 : S1025.BroadcastsInDim S1x1025 (![1] : Fin 1 → Fin S1x1025.rank)
  bcast_S1024_S1024x1_0 : S1024.BroadcastsInDim S1024x1 (![0] : Fin 1 → Fin S1024x1.rank)
  bcast_S1x1025_S1024x1025_0_1 : S1x1025.BroadcastsInDim S1024x1025 (![0, 1] : Fin 2 → Fin S1024x1025.rank)
  bcast_S1024x1_S1024x1025_0_1 : S1024x1.BroadcastsInDim S1024x1025 (![0, 1] : Fin 2 → Fin S1024x1025.rank)
  reducesTo_S1024x1025_S_d0_1 : S1024x1025.ReducesTo [0, 1] S_
  h_S_ : 0 < S_.numel
  reducesTo_S1024x1025_S1024_d1 : S1024x1025.ReducesTo [1] S1024
  bcast_S_S1024 : S_.BroadcastsInDim S1024 (![] : Fin 0 → Fin S1024.rank)
  dot_S1024x300_S100x300_S1024x100_1_1_0_0_n_n_wf : DotDims.WF S1024x300 S100x300 S1024x100 [1] [1] [0] [0] [] []
  dot_S1025x300_S100x300_S1025x100_1_1_0_0_n_n_wf : DotDims.WF S1025x300 S100x300 S1025x100 [1] [1] [0] [0] [] []
  dot_S1024x1025x100_S1x100_S1024x1025x1_2_1_01_0_n_n_wf : DotDims.WF S1024x1025x100 S1x100 S1024x1025x1 [2] [1] [0, 1] [0] [] []

variable [Facts₀]

def dot_S1024x300_S100x300_S1024x100_1_1_0_0_n_n : DotDims S1024x300 S100x300 S1024x100 where
  lhsContracting := [1]
  rhsContracting := [1]
  lhsNonContracting := [0]
  rhsNonContracting := [0]
  lhsBatch := []
  rhsBatch := []
  wf := dot_S1024x300_S100x300_S1024x100_1_1_0_0_n_n_wf
def dot_S1025x300_S100x300_S1025x100_1_1_0_0_n_n : DotDims S1025x300 S100x300 S1025x100 where
  lhsContracting := [1]
  rhsContracting := [1]
  lhsNonContracting := [0]
  rhsNonContracting := [0]
  lhsBatch := []
  rhsBatch := []
  wf := dot_S1025x300_S100x300_S1025x100_1_1_0_0_n_n_wf
def dot_S1024x1025x100_S1x100_S1024x1025x1_2_1_01_0_n_n : DotDims S1024x1025x100 S1x100 S1024x1025x1 where
  lhsContracting := [2]
  rhsContracting := [1]
  lhsNonContracting := [0, 1]
  rhsNonContracting := [0]
  lhsBatch := []
  rhsBatch := []
  wf := dot_S1024x1025x100_S1x100_S1024x1025x1_2_1_01_0_n_n_wf

class Facts : Prop extends Facts₀ where

variable [Facts]
-- ==== Proof.BlockValue.lean ====
/-
  One block of the score kernel, read at one entry.

  The kernel's body holds three loaded blocks: `u` (128 rows of the first projection, 100 hidden slots each),
  `v` (the 100 hidden slots of 128 columns of the second projection, bias already added, transposed) and the weight
  row `w` (100 slots), and one scalar `β`. It walks the hidden slots k = 0, …, 99 one at a time: slot k's column of `u`
  is spread along the columns, slot k's row of `v` along the rows, the two are added, the logistic function is
  applied, the result is scaled by `w k` and added to a running total that starts at zero; at the end `β` is added.
  So the entry (p, q) of what the body stores is

      ((…((0 + t 0) + t 1) + …) + t 99) + β,        t k = σ(u(p, k) + v(k, q)) · w(0, k),

  which is the finite sum Σ_k t k plus β. This file proves exactly that, over the extended reals, for arbitrary
  contents of the four blocks. No property of the numbers is used beyond the sum over `range 100` being its
  hundred terms added from the left, which is how a finite sum over an initial segment of ℕ unfolds.
-/
import proofs.«154815_j22351009809139_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.ValueIdx Idealize.SL.Sem
open scoped BigOperators

namespace Cert.KernelIdeal.Block

open Cert.KernelIdeal Cert.KernelIdeal.Gen

/-! ## The body's operations read at one entry -/

/-- The logistic function of a block, entry by entry, is the logistic function of the entry. -/
theorem logistic_apply {s : Shape} {φ : FTy} (v : FVec Ideal s φ) (i : s.Idx) :
    logistic v i = Ideal.logistic (v i) := rfl

/-- A one-column slice of a 128 × 100 block starts at a hidden slot below 100. -/
theorem col_lt {k : ℕ} (h : S128x100.Slices ![0, k] S128x1) : k < 100 := by
  obtain ⟨_, h2⟩ := h
  have := h2 1
  change k + 1 ≤ 100 at this
  omega

/-- Column `k` of a 128 × 100 block, read at row `p`, is the block's entry (p, k). -/
theorem colSlice {α : Type} {k : ℕ} (v : S128x100.Idx → α) (h : S128x100.Slices ![0, k] S128x1) (p : Fin 128) (z : Fin 1) :
    extractStridedSlice S128x1 ![0, k] v h (ix2 p z) = v (ix2 p ⟨k, col_lt h⟩) :=
  extractStridedSlice_apply _ v h _ _ fun a => by
    match a with
    | ⟨0, _⟩ => show p.val = 0 + p.val; omega
    | ⟨1, _⟩ => show k = k + z.val; have := z.isLt; omega

/-- A one-row slice of a 100 × 128 block starts at a hidden slot below 100. -/
theorem row_lt {k : ℕ} (h : S100x128.Slices ![k, 0] S1x128) : k < 100 := by
  obtain ⟨_, h2⟩ := h
  have := h2 0
  change k + 1 ≤ 100 at this
  omega

/-- Row `k` of a 100 × 128 block, read at column `q`, is the block's entry (k, q). -/
theorem rowSlice {α : Type} {k : ℕ} (v : S100x128.Idx → α) (h : S100x128.Slices ![k, 0] S1x128) (z : Fin 1) (q : Fin 128) :
    extractStridedSlice S1x128 ![k, 0] v h (ix2 z q) = v (ix2 ⟨k, row_lt h⟩ q) :=
  extractStridedSlice_apply _ v h _ _ fun a => by
    match a with
    | ⟨0, _⟩ => show k = k + z.val; have := z.isLt; omega
    | ⟨1, _⟩ => show q.val = 0 + q.val; omega

/-- A one-entry slice of the 1 × 100 weight row starts at a hidden slot below 100. -/
theorem w_lt {k : ℕ} (h : S1x100.Slices ![0, k] S1x1) : k < 100 := by
  obtain ⟨_, h2⟩ := h
  have := h2 1
  change k + 1 ≤ 100 at this
  omega

/-- Entry `k` of the weight row, cut out as a 1 × 1 block, is the row's entry (0, k). -/
theorem wSlice {α : Type} {k : ℕ} (v : S1x100.Idx → α) (h : S1x100.Slices ![0, k] S1x1) (z z' : Fin 1) :
    extractStridedSlice S1x1 ![0, k] v h (ix2 z z') = v (ix2 0 ⟨k, w_lt h⟩) :=
  extractStridedSlice_apply _ v h _ _ fun a => by
    match a with
    | ⟨0, _⟩ => show (0 : ℕ) = 0 + z.val; have := z.isLt; omega
    | ⟨1, _⟩ => show k = k + z'.val; have := z'.isLt; omega

/-- The one entry of a 1 × 1 block. -/
theorem extractAt00 {α : Type} (x : S1x1.Idx → α) (hp : ∀ a, (![0, 0] : Fin 2 → ℕ) a < S1x1.size a) :
    extractAt ![0, 0] x hp = x (ix2 0 0) := by
  unfold extractAt
  exact congrArg x (funext fun a => by match a with | ⟨0, _⟩ => rfl | ⟨1, _⟩ => rfl)

/-- A column spread along the columns of a 128 × 128 block reads, at (p, q), the column's entry p. -/
theorem bcastCol {α : Type} (x : S128x1.Idx → α) (h : S128x1.Broadcasts S128x128) (p q : Fin 128) :
    broadcastTo S128x128 x h (ix2 p q) = x (ix2 p 0) :=
  broadcastTo_apply x h _ _ fun a => by
    match a with
    | ⟨0, _⟩ => rfl
    | ⟨1, _⟩ => rfl

/-- A row spread along the rows of a 128 × 128 block reads, at (p, q), the row's entry q. -/
theorem bcastRow {α : Type} (x : S1x128.Idx → α) (h : S1x128.Broadcasts S128x128) (p q : Fin 128) :
    broadcastTo S128x128 x h (ix2 p q) = x (ix2 0 q) :=
  broadcastTo_apply x h _ _ fun a => by
    match a with
    | ⟨0, _⟩ => rfl
    | ⟨1, _⟩ => rfl

/-! ## The running total is the finite sum -/

/-- Both offsets of a whole-block access are zero. -/
theorem offsets_zero : (![0, 0] : Fin 2 → Nat) = fun _ => 0 := funext fun a => by fin_cases a <;> rfl

/-- A sum over the 100 hidden slots as a sum over the first 100 naturals, a slot beyond the range contributing 0. -/
theorem sum_over_range (f : Fin 100 → EReal) :
    ∑ k : Fin 100, f k = ∑ k ∈ Finset.range 100, (if h : k < 100 then f ⟨k, h⟩ else 0) :=
  Finset.sum_fin_eq_sum_range f

set_option maxHeartbeats 4000000 in
set_option maxRecDepth 100000 in
/-- THE BLOCK'S ENTRY. What the body leaves in the output block at (p, q) is the sum over the hidden slots k of
    σ(u(p, k) + v(k, q)) · w(0, k), plus β: the sum over `range 100` unfolds, one term at a time from the left and
    from 0, to the body's own running total, and each of the body's steps read at (p, q) is one such term. -/
theorem out_apply (x0 : Vec Ideal S128x100 .f32) (x1 : Vec Ideal S100x128 .f32) (x2 : Vec Ideal S1x100 .f32)
    (x3 : Vec Ideal S1x1 .f32) (p q : Fin 128) :
    out0_4 x0 x1 x2 x3 (ix2 p q)
      = (∑ k : Fin 100, Ideal.logistic (x0 (ix2 p k) + x1 (ix2 k q)) * x2 (ix2 0 k)) + x3 (ix2 0 0) := by
  unfold out0_4
  rw [View.canon_unit_zero offsets_zero]
  simp only [View.ld_unit_zero (S := S128x100) offsets_zero, View.ld_unit_zero (S := S100x128) offsets_zero,
    View.ld_unit_zero (S := S1x100) offsets_zero, View.ld_unit_zero (S := S1x1) offsets_zero]
  rw [sum_over_range]
  simp only [Finset.sum_range_succ, Finset.sum_range_zero, Nat.reduceLT, ↓reduceDIte]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, shapeCast_self, addf_apply, mulf_apply, logistic_apply, broadcast_apply, bcastCol, bcastRow,
    colSlice, rowSlice, wSlice, extractAt00, Ideal.ofBits_def, Ideal.ofBits_zero_f32]

end Cert.KernelIdeal.Block

end
-- ==== Proof.ScoreArray.lean ====
/-
  From blocks to the whole score array.

  The score kernel runs on an 8 × 9 grid; at grid point (I, J) it is handed rows 128·I … 128·I + 127 of the first
  operand, columns 128·J … 128·J + 127 of the second, the whole weight row and the bias, and writes the 128 × 128
  block (I, J) of its 1024 × 1152 result. One block's entry (p, q) is the sum over the hidden slots of
  σ(u(p, k) + v(k, q)) · w(0, k) plus β (the block-value lemma); with the blocks placed where the index maps say, that is
  the score of array position (128·I + p, 128·J + q). The 72 blocks tile the result array, so after the region the
  whole array is the one function `score` of the four operands.
-/
import proofs.«154815_j22351009809139_2_alg».proof.Proof.BlockValue
import Idealize.ShloMosaic.Lib.Pipeline.Value
import Idealize.ShloMosaic.Lib.ValueIdx

set_option maxRecDepth 16384

noncomputable section

open Idealize.ShloMosaic Idealize.ShloMosaic.ValueIdx Idealize.ShloMosaic.TcCoe Idealize.SL.Sem
open scoped BigOperators

namespace Cert.KernelIdeal.ScoreArray

open Cert.KernelIdeal Cert.KernelIdeal.Gen Cert.KernelIdeal.Block

variable (m : (ℓ : Loc nD τ sig) → Buf (Elt Ideal) ℓ)

/-! ## The whole score array as one function of the region's four operands -/

/-- The score of sentence position `a` against candidate position `b`: the sum over the hidden slots k of
    σ(u(a, k) + v(k, b)) · w(0, k), plus β. -/
def scoreAt (u : S1024x100.Idx → Elt Ideal .f32) (v : S100x1152.Idx → Elt Ideal .f32) (w : S1x100.Idx → Elt Ideal .f32)
    (β : S1x1.Idx → Elt Ideal .f32) (a : Fin 1024) (b : Fin 1152) : Elt Ideal .f32 :=
  (∑ k : Fin 100, Ideal.logistic (u (ix2 a k) + v (ix2 k b)) * w (ix2 0 k)) + β (ix2 0 0)

/-- The 1024 × 1152 array of scores. -/
def score (u : S1024x100.Idx → Elt Ideal .f32) (v : S100x1152.Idx → Elt Ideal .f32) (w : S1x100.Idx → Elt Ideal .f32)
    (β : S1x1.Idx → Elt Ideal .f32) : S1024x1152.Idx → Elt Ideal .f32 :=
  fun i => scoreAt u v w β ⟨(i 0).val, (i 0).isLt⟩ ⟨(i 1).val, (i 1).isLt⟩

/-! ## Where each grid point's blocks lie -/

/-- Over the 8 × 9 grid: the first operand's block moves with the output's block row and spans all hidden slots;
    the second's moves with the output's block column; the weight row and the bias are one block each; the output's
    block indices stay below 8 and 9. -/
theorem block_indices : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 7 ∧ win0_4.index t (1 : Fin 2) ≤ 8 :=
  (by decide +kernel : ∀ t : Fin grid0.N, _)

/-- Every one of the 8 × 9 output blocks is some grid point's. -/
theorem block_onto : ∀ (q0 : Fin 8) (q1 : Fin 9), ∃ t : Fin cfg0.N, win0_4.index t = ![q0.val, q1.val] :=
  (by decide +kernel : ∀ (q0 : Fin 8) (q1 : Fin 9), ∃ t : Fin grid0.N, win0_4.index t = ![q0.val, q1.val])

/-! ## The operands' blocks, read where the output block's entry needs them -/

/-- Row p, slot k of the first operand's block at point t is the operand's entry (a, k), a the array row of the
    output block's row p. -/
theorem block0_read (c : Dev nD) (t : Fin cfg0.N) (p : Fin 128) (k : Fin 100) (a : Fin 1024)
    (ha : a.val = win0_4.index t (0 : Fin 2) * 128 + p.val) :
    iblk m c 0 t (ix2 p k) = V m c main_v3 (ix2 a k) := by
  obtain ⟨e0, e1, -⟩ := block_indices t
  show V m c main_v3 (((cfg0.win 0).blk t).view.emb (ix2 p k)) = V m c main_v3 (ix2 a k)
  refine congrArg (V m c main_v3) (funext fun d => Fin.ext ?_)
  match d with
  | ⟨0, _⟩ => show win0_0.index t (0 : Fin 2) * 128 + 1 * p.val = a.val; omega
  | ⟨1, _⟩ => show win0_0.index t (1 : Fin 2) * 100 + 1 * k.val = k.val; omega

/-- Slot k, column q of the second operand's block at point t is the operand's entry (k, b), b the array column of
    the output block's column q. -/
theorem block1_read (c : Dev nD) (t : Fin cfg0.N) (k : Fin 100) (q : Fin 128) (b : Fin 1152)
    (hb : b.val = win0_4.index t (1 : Fin 2) * 128 + q.val) :
    iblk m c 1 t (ix2 k q) = V m c main_v10 (ix2 k b) := by
  obtain ⟨-, -, e2, e3, -⟩ := block_indices t
  show V m c main_v10 (((cfg0.win 1).blk t).view.emb (ix2 k q)) = V m c main_v10 (ix2 k b)
  refine congrArg (V m c main_v10) (funext fun d => Fin.ext ?_)
  match d with
  | ⟨0, _⟩ => show win0_1.index t (0 : Fin 2) * 100 + 1 * k.val = k.val; omega
  | ⟨1, _⟩ => show win0_1.index t (1 : Fin 2) * 128 + 1 * q.val = b.val; omega

/-- The weight row's one block is the row. -/
theorem block2_read (c : Dev nD) (t : Fin cfg0.N) (z : Fin 1) (k : Fin 100) :
    iblk m c 2 t (ix2 z k) = V m c main_arg3 (ix2 z k) := by
  obtain ⟨-, -, -, -, e4, e5, -⟩ := block_indices t
  show V m c main_arg3 (((cfg0.win 2).blk t).view.emb (ix2 z k)) = V m c main_arg3 (ix2 z k)
  refine congrArg (V m c main_arg3) (funext fun d => Fin.ext ?_)
  match d with
  | ⟨0, _⟩ => show win0_2.index t (0 : Fin 2) * 1 + 1 * z.val = z.val; omega
  | ⟨1, _⟩ => show win0_2.index t (1 : Fin 2) * 100 + 1 * k.val = k.val; omega

/-- The bias's one block is the bias. -/
theorem block3_read (c : Dev nD) (t : Fin cfg0.N) (z z' : Fin 1) :
    iblk m c 3 t (ix2 z z') = V m c main_v11 (ix2 z z') := by
  obtain ⟨-, -, -, -, -, -, e6, e7, -⟩ := block_indices t
  show V m c main_v11 (((cfg0.win 3).blk t).view.emb (ix2 z z')) = V m c main_v11 (ix2 z z')
  refine congrArg (V m c main_v11) (funext fun d => Fin.ext ?_)
  match d with
  | ⟨0, _⟩ => show win0_3.index t (0 : Fin 2) * 1 + 1 * z.val = z.val; omega
  | ⟨1, _⟩ => show win0_3.index t (1 : Fin 2) * 1 + 1 * z'.val = z'.val; omega

/-! ## What a point writes back, and the array after the run -/

/-- The body's result at point t, entry j of the output block, is the score at the array position of that entry. -/
theorem flushed_point (c : Dev nD) (t : Fin cfg0.N) (j : S128x128.Idx) :
    out0_4 (iblk m c 0 t) (iblk m c 1 t) (iblk m c 2 t) (iblk m c 3 t) j
      = score (V m c main_v3) (V m c main_v10) (V m c main_arg3) (V m c main_v11) (((cfg0.win 4).blk t).view.emb j) := by
  obtain ⟨p, q, rfl⟩ : ∃ (p q : Fin 128), j = ix2 p q := ⟨j 0, j 1, eq_ix2 j⟩
  obtain ⟨-, -, -, -, -, -, -, -, e8, e9⟩ := block_indices t
  refine (out_apply (iblk m c 0 t) (iblk m c 1 t) (iblk m c 2 t) (iblk m c 3 t) p q).trans ?_
  have ha : ((((cfg0.win 4).blk t).view.emb (ix2 p q)) 0).val = win0_4.index t (0 : Fin 2) * 128 + p.val := by
    show win0_4.index t (0 : Fin 2) * 128 + 1 * p.val = _; omega
  have hb : ((((cfg0.win 4).blk t).view.emb (ix2 p q)) 1).val = win0_4.index t (1 : Fin 2) * 128 + q.val := by
    show win0_4.index t (1 : Fin 2) * 128 + 1 * q.val = _; omega
  unfold score scoreAt
  rw [block3_read m c t 0 0]
  refine congrArg (· + V m c main_v11 (ix2 0 0)) (Finset.sum_congr rfl fun k _ => ?_)
  rw [block0_read m c t p k ⟨_, ((((cfg0.win 4).blk t).view.emb (ix2 p q)) 0).isLt⟩ ha,
    block1_read m c t k q ⟨_, ((((cfg0.win 4).blk t).view.emb (ix2 p q)) 1).isLt⟩ hb,
    block2_read m c t 0 k]

/-- WHAT POINT t WRITES BACK is its block of the score array of the region's operands. -/
theorem flushed_eq (c : Dev nD) (t : Fin cfg0.N) :
    (dats m 0 c).flushed 4 t
      = ((cfg0.win 4).blk t).view.read (Elt Ideal) (score (V m c main_v3) (V m c main_v10) (V m c main_arg3) (V m c main_v11)) := by
  show (cfg0.win 4).cut (grid0.coords t) ((dats m 0 c).after 4 t) = _
  rw [after0_4]
  funext j
  exact flushed_point m c t j

/-- An index of the output array is in point t's block iff each coordinate is in the block's range. -/
theorem mem_block (t : Fin cfg0.N) (i : S1024x1152.Idx) :
    i ∈ ((cfg0.win 4).blk t).view.set ↔ ∀ a : Fin 2, win0_4.index t a * S128x128.size a ≤ (i a).val
      ∧ (i a).val < win0_4.index t a * S128x128.size a + S128x128.size a := by
  show i ∈ ((View.whole main_v12).slice (win0_4.rect t)).set ↔ _
  rw [View.set_slice_whole, Rect.mem_set_unit]
  exact Iff.rfl

/-- The 8 × 9 blocks of 128 × 128 cover the 1024 × 1152 array: position (r, s) lies in block (r / 128, s / 128). -/
theorem covered (i : S1024x1152.Idx) :
    ∃ t : Fin cfg0.N, (cfg0.win 4).flush t = true ∧ i ∈ ((cfg0.win 4).blk t).view.set := by
  have hi0 : (i 0).val < 1024 := (i 0).isLt
  have hi1 : (i 1).val < 1152 := (i 1).isLt
  obtain ⟨t, ht⟩ := block_onto ⟨(i 0).val / 128, by omega⟩ ⟨(i 1).val / 128, by omega⟩
  have q0 : win0_4.index t (0 : Fin 2) = (i 0).val / 128 := congrFun ht 0
  have q1 : win0_4.index t (1 : Fin 2) = (i 1).val / 128 := congrFun ht 1
  refine ⟨t, flush0_4 t, ?_⟩
  rw [mem_block]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 128 ≤ (i 1).val ∧ (i 1).val < win0_4.index t (1 : Fin 2) * 128 + 128; omega

/-- THE OUTPUT ARRAY after the region is the score array of the region's operands. -/
theorem final (c : Dev nD) :
    (dats m 0 c).arrAt 4 cfg0.N = score (V m c main_v3) (V m c main_v10) (V m c main_arg3) (V m c main_v11) :=
  (dats m 0 c).arrAt_eq_of_cover 4 _ (fun t _ => flushed_eq m c t) covered

end Cert.KernelIdeal.ScoreArray

end
-- ==== Proof.RegionInputs.lean ====
/-
  What the score kernel is launched on.

  Before the kernel runs, the program prepares four arrays from the arguments (sentence x, first-layer weights W1
  and bias b1, second-layer weights W2 and bias b2):
    * the first projection  s1(i, k) = Σ_h x(i, h) · W1(k, h)            (1024 × 100),
    * the second projection s2(j, k) = Σ_h [0; x](j, h) · W1(k, 300 + h)  (1025 × 100), to which b1(k) is added in
      every row; the result is padded with 127 more rows to 1152 rows and transposed to 100 × 1152,
    * W2 itself (1 × 100), and b2 as a 1 × 1 array.
  This file states each of them as a term of the arguments, and reads the second and the fourth at an entry: at a
  hidden slot k and one of the 1025 real positions j the transposed array holds s2(j, k) + b1(k) (the padding rows
  are never read there), and the 1 × 1 array holds b2.
-/
import proofs.«154815_j22351009809139_2_alg».proof.Proof.Gen.KernelIdeal.Frame
import Idealize.ShloMosaic.Lib.Pipeline.Value
import Idealize.ShloMosaic.Lib.ValueIdx
import Idealize.ShloMosaic.Lib.IdealHost
import Idealize.ShloMosaic.Lib.KernelVsHost
import Idealize.ShloMosaic.Lib.StableHlo.Run
import Idealize.ShloMosaic.PureOps.Ideal.Laws

noncomputable section

open Idealize.ShloMosaic Idealize.ShloMosaic.ValueIdx Idealize.ShloMosaic.TcCoe Idealize.SL.Sem Idealize.ShloMosaic.StableHlo
open scoped BigOperators

namespace Cert.KernelIdeal.Inputs

open Cert.KernelIdeal Cert.KernelIdeal.Gen

variable (m : (ℓ : Loc nD τ sig) → Buf (Elt Ideal) ℓ)

/-! ## The arrays the region is launched on, as terms of the arguments -/

/-- The first projection: row i is the i-th sentence row against the first 300 columns of the weight matrix. -/
def s1 (x0 : FVec Ideal S1024x300 .f32) (x1 : FVec Ideal S100x600 .f32) : FVec Ideal S1024x100 .f32 :=
  Host.dotGeneral (F := Ideal) (φ₁ := .f32) (φ₂ := .f32) dot_S1024x300_S100x300_S1024x100_1_1_0_0_n_n none x0
    (extractStridedSlice S100x300 ![0, 0] x1 slices_S100x600_S100x300_0_0)

/-- The second projection: row j is the j-th row of "a zero row, then the sentence rows" against the last 300
    columns of the weight matrix. -/
def s5 (x0 : FVec Ideal S1024x300 .f32) (x1 : FVec Ideal S100x600 .f32) : FVec Ideal S1025x100 .f32 :=
  Host.dotGeneral (F := Ideal) (φ₁ := .f32) (φ₂ := .f32) dot_S1025x300_S100x300_S1025x100_1_1_0_0_n_n none
    (concatenate S1025x300 0 [⟨S1x300, broadcastInDim S1x300 ![] bcast_S_S1x300 (constant (F := Ideal) S_ .f32 0x00000000#32)⟩, ⟨S1024x300, x0⟩]
      concatenates_S1x300_S1024x300_S1025x300_d0)
    (extractStridedSlice S100x300 ![0, 300] x1 slices_S100x600_S100x300_0_300)

/-- The region's first operand is the first projection of the arguments. -/
theorem V_v3 (c : Dev nD) :
    (V m c main_v3 : FVec Ideal S1024x100 .f32)
      = s1 (m ((c : Thread nD τ).loc main_arg0)) (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

/-- The region's second operand is the second projection with the bias added to every row, padded below with 127
    rows and transposed: hidden slots along the rows, the 1152 padded positions along the columns. -/
theorem V_v10 (c : Dev nD) :
    (V m c main_v10 : FVec Ideal S100x1152 .f32)
      = transpose S100x1152 [1, 0]
          (pad S1152x100 ![0, 0] ![127, 0] ![0, 0]
            (addf (s5 (m ((c : Thread nD τ).loc main_arg0)) (m ((c : Thread nD τ).loc main_arg1)))
              (broadcastInDim S1025x100 ![0, 1] bcast_S1x100_S1025x100_0_1
                (broadcastInDim S1x100 ![1] bcast_S100_S1x100_1 (m ((c : Thread nD τ).loc main_arg2)))))
            (sitofp (F := Ideal) .f32 (constantI S_ 32 0#32)) pads_S1025x100_S1152x100_01270_000 h_S_)
          transposes_S1152x100_S100x1152_1_0 := by
  dsimp only [Gen.V, Gen.V0]
  simp only [Gen.hostOps0, Gen.hostOps0_1, Gen.hostOps0_2, List.flatten_cons, List.flatten_nil, List.append_nil,
    List.cons_append, List.nil_append]
  after_results
  rfl

/-- The region's fourth operand is the output bias as a 1 × 1 array. -/
theorem V_v11 (c : Dev nD) :
    (V m c main_v11 : FVec Ideal S1x1 .f32)
      = shapeCast S1x1 (m ((c : Thread nD τ).loc main_arg4)) shapeCasts_S1_S1x1 := by
  dsimp only [Gen.V, Gen.V0]
  simp only [Gen.hostOps0, Gen.hostOps0_1, Gen.hostOps0_2, List.flatten_cons, List.flatten_nil, List.append_nil,
    List.cons_append, List.nil_append]
  after_results
  rfl

/-! ## Read at an entry -/

/-- The transposed, padded, biased second projection at (k, j'), for a column j' that is one of the 1025 real
    positions j (not one of the 127 padding rows): entry (j, k) of the second projection plus the bias of slot k. -/
theorem biased_transposed_apply (y : FVec Ideal S1025x100 .f32) (x2 : FVec Ideal S100 .f32) (z : FVec Ideal S_ .f32)
    (k : Fin 100) (b : Fin 1025) (b' : Fin 1152) (hb : b'.val = b.val) :
    transpose S100x1152 [1, 0]
        (pad S1152x100 ![0, 0] ![127, 0] ![0, 0]
          (addf y (broadcastInDim S1025x100 ![0, 1] bcast_S1x100_S1025x100_0_1
            (broadcastInDim S1x100 ![1] bcast_S100_S1x100_1 x2)))
          z pads_S1025x100_S1152x100_01270_000 h_S_)
        transposes_S1152x100_S100x1152_1_0 (ix2 k b')
      = y (ix2 b k) + x2 (ix1 k) := by
  refine (transpose_apply [1, 0] _ transposes_S1152x100_S100x1152_1_0 (ix2 k b') (ix2 b' k) (fun d => by
    match d with
    | ⟨0, _⟩ => rfl
    | ⟨1, _⟩ => rfl)).trans ?_
  refine (pad_apply_of_inside _ _ _ _ _ pads_S1025x100_S1152x100_01270_000 h_S_ (ix2 b' k) (ix2 b k) (fun a => by
    match a with
    | ⟨0, _⟩ => show b'.val = 0 + b.val * (0 + 1); omega
    | ⟨1, _⟩ => show k.val = 0 + k.val * (0 + 1); omega)).trans ?_
  rw [addf_apply]
  refine congrArg (y (ix2 b k) + ·) ?_
  refine (broadcastInDim_apply _ bcast_S1x100_S1025x100_0_1 _ (ix2 b k) (ix2 0 k) (fun a => by
    match a with
    | ⟨0, _⟩ => show (0 : ℕ) = if (1 : Nat) = 1 then 0 else b.val; rw [if_pos rfl]
    | ⟨1, _⟩ => show k.val = if (100 : Nat) = 1 then 0 else k.val; rw [if_neg (by decide)])).trans ?_
  exact broadcastInDim_apply _ bcast_S100_S1x100_1 x2 (ix2 0 k) (ix1 k) (fun a => by
    match a with
    | ⟨0, _⟩ => show k.val = if (100 : Nat) = 1 then 0 else k.val; rw [if_neg (by decide)])

/-- The output bias as a 1 × 1 array, at its one entry, is the bias. -/
theorem bias_apply (x4 : FVec Ideal S1 .f32) :
    shapeCast S1x1 x4 shapeCasts_S1_S1x1 (ix2 0 0) = x4 (ix1 0) := by
  unfold shapeCast
  refine congrArg x4 (funext fun a => ?_)
  match a with
  | ⟨0, _⟩ =>
    apply Fin.ext
    have h := ((Shape.reshapeEquiv shapeCasts_S1_S1x1 (ix2 0 0)) ⟨0, by decide⟩).isLt
    exact Nat.lt_one_iff.mp h

end Cert.KernelIdeal.Inputs

end
-- ==== Proof.ReferenceScore.lean ====
/-
  The reference's score matrix, read at one entry.

  The reference forms, for every pair (a, b) of a sentence position and a candidate position and every hidden slot k,
  the number (s1(a, k) + s2(b, k)) + b1(k), applies the logistic function spelt as 1 / (1 + exp(−·)), contracts the
  slot axis against the second-layer weights and adds the second-layer bias. Read at (a, b) that is

      Σ_k σ((s1(a, k) + s2(b, k)) + b1(k)) · W2(0, k)  +  b2.

  The quotient 1 / (1 + exp(−x)) with both ones written as their binary patterns is the logistic function on every
  extended real: the pattern denotes exactly 1, and the logistic function is defined as that quotient.
-/
import proofs.«154815_j22351009809139_2_alg».proof.Proof.Gen.ReferenceIdeal.Read
import Idealize.ShloMosaic.Lib.Pipeline.Value
import Idealize.ShloMosaic.Lib.ValueIdx
import Idealize.ShloMosaic.Lib.IdealHost
import Idealize.ShloMosaic.PureOps.Ideal.Laws

noncomputable section

open Idealize.ShloMosaic Idealize.ShloMosaic.ValueIdx Idealize.SL.Sem
open scoped BigOperators

namespace Cert.ReferenceIdeal.Score

open Cert.ReferenceIdeal Cert.ReferenceIdeal.Gen Cert.ReferenceIdeal.Read

/-- The host's spelling of the logistic function, one over one plus the exponential of the negation, with the
    literal ones as their f32 patterns, is the logistic function on every extended real. -/
theorem host_logistic (x : EReal) :
    Ideal.div (Ideal.ofBits .f32 0x3F800000#32) (Ideal.ofBits .f32 0x3F800000#32 + Ideal.exp (-x)) = Ideal.logistic x := by
  rw [Ideal.ofBits_one_f32]; rfl

/-- A one-element array read anywhere is read at its one index. -/
theorem b2_scalar (x4 : (⟨S1, .f32⟩ : BufTy).Contents (Elt Ideal)) (j : S_.Idx) :
    val_main_v22 (F := Ideal) x4 j = x4 (ix1 0) := by
  unfold val_main_v22 shapeCast
  refine congrArg x4 (funext fun a => ?_)
  match a with
  | ⟨0, _⟩ =>
    apply Fin.ext
    have h := ((Shape.reshapeEquiv shapeCasts_S1_S_ j) ⟨0, by decide⟩).isLt
    exact Nat.lt_one_iff.mp h

theorem score_apply (x0 : (⟨S1024x300, .f32⟩ : BufTy).Contents (Elt Ideal)) (x1 : (⟨S100x600, .f32⟩ : BufTy).Contents (Elt Ideal))
    (x2 : (⟨S100, .f32⟩ : BufTy).Contents (Elt Ideal)) (x3 : (⟨S1x100, .f32⟩ : BufTy).Contents (Elt Ideal))
    (x4 : (⟨S1, .f32⟩ : BufTy).Contents (Elt Ideal)) (a : Fin 1024) (b : Fin 1025) :
    val_main_v24 (F := Ideal) x0 x1 x2 x3 x4 (ix2 a b)
      = (∑ k : Fin 100, Ideal.logistic ((val_main_v3 (F := Ideal) x0 x1 (ix2 a k) + val_main_v5 (F := Ideal) x0 x1 (ix2 b k)) + x2 (ix1 k)) * x3 (ix2 0 k))
        + x4 (ix1 0) := by
  have e1 : ∀ k : Fin 100, idx_main_v6 (idx_main_v8 (lidx_main_v20 (idx_main_v21 (ix2 a b)) k)) = ix2 a k := fun k =>
    funext fun d => Fin.ext (by
      match d with
      | ⟨0, _⟩ => show (a.val * 1025 + b.val) / 1025 = a.val; have := b.isLt; omega
      | ⟨1, _⟩ => rfl)
  have e2 : ∀ k : Fin 100, idx_main_v7 (idx_main_v9 (lidx_main_v20 (idx_main_v21 (ix2 a b)) k)) = ix2 b k := fun k =>
    funext fun d => Fin.ext (by
      match d with
      | ⟨0, _⟩ => show (a.val * 1025 + b.val) / 1 % 1025 = b.val; have := b.isLt; omega
      | ⟨1, _⟩ => rfl)
  have e3 : ∀ k : Fin 100, idx_main_v11 (idx_main_v12 (lidx_main_v20 (idx_main_v21 (ix2 a b)) k)) = ix1 k := fun k =>
    funext fun d => Fin.ext (by
      match d with
      | ⟨0, _⟩ => rfl)
  have e4 : ∀ k : Fin 100, ridx_main_v20 (idx_main_v21 (ix2 a b)) k = ix2 0 k := fun k =>
    funext fun d => Fin.ext (by
      match d with
      | ⟨0, _⟩ => rfl
      | ⟨1, _⟩ => rfl)
  rw [val_main_v24_apply, val_main_v21_apply, val_main_v20_apply, val_main_v23_apply, b2_scalar]
  simp only [val_main_v19_apply, val_main_v18_apply, val_main_cst_1_apply, val_main_v17_apply, val_main_v16_apply,
    val_main_cst_0_apply, val_main_v15_apply, val_main_v14_apply, val_main_v13_apply, val_main_v10_apply,
    val_main_v8_apply, val_main_v6_apply, val_main_v9_apply, val_main_v7_apply, val_main_v12_apply, val_main_v11_apply,
    e1, e2, e3, e4, Ideal.addf_def, Ideal.hostDivf_def, Ideal.hostUnary_exp_def, Ideal.hostNegf_def, Ideal.negf_def,
    Ideal.ofBits_def, host_logistic]

end Cert.ReferenceIdeal.Score
end
-- ==== Proof.Results.lean ====
/-
  The two programs' results are the same functions of the arguments.

  Up to the score matrix the programs differ: the kernel program adds the first-layer bias to the second projection
  before its region, pads and transposes it, and accumulates the contraction with the second-layer weights one hidden
  slot at a time inside 128 × 128 blocks, on 1152 columns of which it keeps 1025; the reference forms the whole
  1024 × 1025 × 100 array, adds the bias last, and contracts once. Entry by entry the two score matrices are the same
  extended real (one use of associativity of addition; the order of a finite sum does not matter). From the score
  matrix on, both programs run the same operations — the indicator of the target positions, the mean absolute
  difference, the row-wise softmax — so both results agree.
-/
import proofs.«154815_j22351009809139_2_alg».proof.Proof.ScoreArray
import proofs.«154815_j22351009809139_2_alg».proof.Proof.RegionInputs
import proofs.«154815_j22351009809139_2_alg».proof.Proof.ReferenceScore
import Idealize.ShloMosaic.Lib.StableHlo.Run
import Idealize.ShloMosaic.Lib.Pipeline.FrameSuffix

set_option maxRecDepth 16384

noncomputable section

open Idealize.ShloMosaic Idealize.ShloMosaic.ValueIdx Idealize.ShloMosaic.TcCoe Idealize.SL.Sem Idealize.ShloMosaic.StableHlo
open scoped BigOperators

namespace Cert.Bridge

open Cert.KernelIdeal Cert.KernelIdeal.Gen

variable (m : (ℓ : Loc nD τ sig) → Buf (Elt Ideal) ℓ)

/-- Both programs form the first projection by the same contraction of the same arguments. -/
theorem s1_eq (x0 : FVec Ideal S1024x300 .f32) (x1 : FVec Ideal S100x600 .f32) :
    Cert.KernelIdeal.Inputs.s1 x0 x1 = Cert.ReferenceIdeal.Read.val_main_v3 (F := Ideal) x0 x1 := rfl

/-- Both programs form the second projection by the same contraction of the same arguments. -/
theorem s5_eq (x0 : FVec Ideal S1024x300 .f32) (x1 : FVec Ideal S100x600 .f32) :
    Cert.KernelIdeal.Inputs.s5 x0 x1 = Cert.ReferenceIdeal.Read.val_main_v5 (F := Ideal) x0 x1 := rfl

/-- THE TWO SCORE MATRICES AGREE. The kernel's 1024 × 1152 array cut back to its first 1025 columns is the reference's
    score matrix: at (a, b) the kernel's entry is Σ_k σ(s1(a, k) + (s2(b, k) + b1(k))) · W2(0, k) + b2 — the bias was added to the
    second projection before the region, and column b < 1025 is never a padding column — and the reference's is
    Σ_k σ((s1(a, k) + s2(b, k)) + b1(k)) · W2(0, k) + b2; addition of extended reals is associative. -/
theorem scores_eq (c : Dev nD) :
    extractStridedSlice S1024x1025 ![0, 0]
        (Cert.KernelIdeal.ScoreArray.score (V m c main_v3) (V m c main_v10) (V m c main_arg3) (V m c main_v11))
        slices_S1024x1152_S1024x1025_0_0
      = Cert.ReferenceIdeal.Read.val_main_v24 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  funext i
  obtain ⟨a, b, rfl⟩ : ∃ (a : Fin 1024) (b : Fin 1025), i = ix2 a b := ⟨i 0, i 1, eq_ix2 i⟩
  have hb : b.val < 1152 := by have := b.isLt; omega
  rw [Cert.ReferenceIdeal.Score.score_apply]
  refine (extractStridedSlice_apply _ _ slices_S1024x1152_S1024x1025_0_0 (ix2 a b) (ix2 a ⟨b.val, hb⟩) (fun d => by
    match d with
    | ⟨0, _⟩ => show a.val = 0 + a.val; omega
    | ⟨1, _⟩ => show b.val = 0 + b.val; omega)).trans ?_
  show Cert.KernelIdeal.ScoreArray.scoreAt _ _ _ _ a ⟨b.val, hb⟩ = _
  unfold Cert.KernelIdeal.ScoreArray.scoreAt
  rw [Cert.KernelIdeal.Inputs.V_v3, Cert.KernelIdeal.Inputs.V_v10, Cert.KernelIdeal.Inputs.V_v11, V_main_arg3,
    Cert.KernelIdeal.Inputs.bias_apply]
  refine congrArg (· + m ((c : Thread nD τ).loc main_arg4) (ix1 0)) (Finset.sum_congr rfl fun k _ => ?_)
  rw [Cert.KernelIdeal.Inputs.biased_transposed_apply _ _ _ k b ⟨b.val, hb⟩ rfl, s1_eq, s5_eq, add_assoc]

/-- After the region, the kernel's output array is the score array of the region's operands. -/
theorem out_array (c : Dev nD) :
    Pipeline.withArrays (cfgs 0).spec c (V0 m c) (fun w => (dats m 0 c).arrAt w (cfgs 0).N) (Proc.devRef .tc main_v12)
      = Cert.KernelIdeal.ScoreArray.score (V m c main_v3) (V m c main_v10) (V m c main_arg3) (V m c main_v11) :=
  (Pipeline.withArrays_arr spec0 launch0.win.arr_inj c _ _ 4).trans (Cert.KernelIdeal.ScoreArray.final m c)

/-- The region does not touch the target positions. -/
theorem targets_kept (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans
    (V_main_arg5 m c)

/-- The kernel program's first result, the mean absolute difference between the scores and the one-hot indicator of
    the target positions, is the reference's: after the region both programs apply the same operations to score
    matrices that agree. -/
theorem loss_eq (c : Dev nD) :
    Pipeline.afterTail₀ cfgs (dats m) 0 (V0 m) [hostOps1] c main_v24
      = Cert.ReferenceIdeal.Read.val_main_v35 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v24) = _
  after_results
  rw [out_array, targets_kept, scores_eq]
  rfl

/-- The kernel program's second result, the row-wise softmax of the scores, is the reference's, for the same reason. -/
theorem softmax_eq (c : Dev nD) :
    Pipeline.afterTail₀ cfgs (dats m) 0 (V0 m) [hostOps1] c main_v35
      = Cert.ReferenceIdeal.Read.val_main_v46 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v35) = _
  after_results
  rw [out_array, scores_eq]
  rfl

end Cert.Bridge
end
-- ==== Proof.lean ====
/-
  A dependency-parser scorer: every (sentence position, candidate head position) pair is scored by a two-layer
  perceptron on the concatenation of the two positions' vectors, and the scores feed an L1 loss against the one-hot
  true heads and a row-wise softmax.

  Both programs split the first layer over the two halves of the concatenation: s1 = x · W1[:, :300]ᵀ for the sentence
  rows and s2 = [0; x] · W1[:, 300:]ᵀ for the candidate rows, so the hidden pre-activation of pair (a, b) at slot k is
  s1(a, k) + s2(b, k) + b1(k). The score is Σ_k σ(pre-activation) · W2(0, k) + b2, σ the logistic function.

  The kernel program adds b1 to s2 once (so its pre-activation is s1(a, k) + (s2(b, k) + b1(k))), pads the candidate axis
  from 1025 to 1152, and computes the scores in 128 × 128 blocks, walking the 100 hidden slots one at a time and adding
  each slot's term to a running total from zero; it then drops the padded columns. The reference adds b1 last
  ((s1(a, k) + s2(b, k)) + b1(k)), spells σ as 1 / (1 + exp(−·)) and contracts the slot axis in one product. On the extended
  reals these are the same number: addition is associative and commutative (no finiteness is needed for that), the
  logistic function is by definition that quotient, and a finite sum does not depend on the order in which its terms
  are added. From the score matrix on the two programs apply identical operations. Hence equal results.

  The three frame claims are the generated frame certificates (the reference's is its generated run with the results
  dropped); the idealization rewrote nothing, so `preserves` is trivial.
-/
import proofs.«154815_j22351009809139_2_alg».proof.Defs
import proofs.«154815_j22351009809139_2_alg».proof.Proof.Gen.Kernel
import proofs.«154815_j22351009809139_2_alg».proof.Proof.Gen.Kernel.Skeleton
import proofs.«154815_j22351009809139_2_alg».proof.Proof.Gen.Kernel.Launch
import proofs.«154815_j22351009809139_2_alg».proof.Proof.Gen.Kernel.Points
import proofs.«154815_j22351009809139_2_alg».proof.Proof.Gen.Kernel.Frame
import proofs.«154815_j22351009809139_2_alg».proof.Proof.Gen.KernelIdeal
import proofs.«154815_j22351009809139_2_alg».proof.Proof.Gen.KernelIdeal.Skeleton
import proofs.«154815_j22351009809139_2_alg».proof.Proof.Gen.KernelIdeal.Launch
import proofs.«154815_j22351009809139_2_alg».proof.Proof.Gen.KernelIdeal.Points
import proofs.«154815_j22351009809139_2_alg».proof.Proof.Gen.KernelIdeal.Frame
import proofs.«154815_j22351009809139_2_alg».proof.Proof.Gen.ReferenceIdeal
import proofs.«154815_j22351009809139_2_alg».proof.Proof.Gen.ReferenceIdeal.Run
import proofs.«154815_j22351009809139_2_alg».proof.Proof.Gen.ReferenceIdeal.Read
import proofs.«154815_j22351009809139_2_alg».proof.Proof.Gen.Pre_finite_inputs
import proofs.«154815_j22351009809139_2_alg».proof.Proof.Results
import Idealize.ShloMosaic.Adequacy
import Idealize.ShloMosaic.Init

set_option maxRecDepth 16384

noncomputable section

namespace Cert.Proof

open Idealize.ShloMosaic Idealize.SL.Sem Idealize.ShloMosaic.TcCoe

/-- The kernel program as printed terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the six arguments, both programs end with the loss and the softmax matrix that the
    reference's operations give on those arguments: the kernel program because its score matrix is the reference's
    and its later operations are the reference's, the reference by its own run. -/
theorem algebraic : Cert.algebraic_KernelIdeal_ReferenceIdeal := by
  intro m ρ m' ρ' _ hagree
  refine ⟨fun c => Cert.ReferenceIdeal.Read.val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Gen.run_main m ρ)
    exact ⟨((h c).2 Cert.KernelIdeal.main_v24 (Pipeline.mem_restRefs_of Cert.KernelIdeal.main_v24 (by decide) (by decide))).trans
        (Cert.Bridge.loss_eq m c),
      ((h c).2 Cert.KernelIdeal.main_v35 (Pipeline.mem_restRefs_of Cert.KernelIdeal.main_v35 (by decide) (by decide))).trans
        (Cert.Bridge.softmax_eq m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).1 2).trans (((Cert.KernelIdeal.Gen.dats m 0 c).arrAt_in 2 rfl _).trans
        ((Cert.KernelIdeal.Gen.A_eq m c 2).trans (Cert.KernelIdeal.Gen.V_main_arg3 m c))),
      ((h c).2 Cert.KernelIdeal.main_arg4 (Pipeline.mem_restRefs_of Cert.KernelIdeal.main_arg4 (by decide) (by decide))).trans
        (Cert.KernelIdeal.Gen.W_main_arg4 m (Cert.KernelIdeal.Gen.dats m) c),
      ((h c).2 Cert.KernelIdeal.main_arg5 (Pipeline.mem_restRefs_of Cert.KernelIdeal.main_arg5 (by decide) (by decide))).trans
        (Cert.KernelIdeal.Gen.W_main_arg5 m (Cert.KernelIdeal.Gen.dats m) c)⟩
  · refine (θ_run Cert.ReferenceIdeal.defs _ _).mono (fun r h c => ?_) (Cert.ReferenceIdeal.Value.run (F := Ideal) m' ρ')
    obtain ⟨h35, h46, h0, h1, h2, h3, h4, h5⟩ := h c
    obtain ⟨a0, a1, a2, a3, a4, a5⟩ := hagree c
    refine ⟨?_, ?_, h0, h1, h2, h3, h4, h5⟩
    · rw [h35, Cert.ReferenceIdeal.Read.val_main_v35_eq, a0, a1, a2, a3, a4, a5]
    · rw [h46, Cert.ReferenceIdeal.Read.val_main_v46_eq, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
